-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x8192 : Shape := ⟨2, ![2048, 8192]⟩
abbrev S8x256x256 : Shape := ⟨3, ![8, 256, 256]⟩
abbrev S2048 : Shape := ⟨1, ![2048]⟩
abbrev S_ : Shape := ⟨0, ![]⟩

class Facts : Prop where
  bcast_S_S2048x8192 : S_.BroadcastsInDim S2048x8192 (![] : Fin 0 → Fin S2048x8192.rank)
  reducesTo_S2048x8192_S_d0_1 : S2048x8192.ReducesTo [0, 1] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x8192 .f32) (main_arg1 : FVec F S8x256x256 .f32) (main_arg2 : FVec F S2048 .f32) : IVec S_ 1 :=
  let main_v0 : FVec F S2048x8192 .f32 := Host.absf main_arg0
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  let main_c : IVec S_ 1 := constantI S_ 1 1#1
  let main_v3 : IVec S_ 1 := (fun x v => Host.reduce IntOp.andi x v reducesTo_S2048x8192_S_d0_1 h_S_) main_v2 main_c
  let main_v4 : FVec F S8x256x256 .f32 := Host.absf main_arg1
  let main_cst_0 : FVec F S_ .f32 := constant S_ .f32 0x7F800000#32
  let main_v5 : FVec F S8x256x256 .f32 := broadcastInDim S8x256x256 ![] bcast_S_S8x256x256 main_cst_0
  let main_v6 : IVec S8x256x256 1 := cmpf .olt main_v4 main_v5
  let main_c_1 : IVec S_ 1 := constantI S_ 1 1#1
  let main_v7 : IVec S_ 1 := (fun x v => Host.reduce IntOp.andi x v reducesTo_S8x256x256_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S2048x8192 : Shape := ⟨2, ![2048, 8192]⟩
abbrev S8x256x256 : Shape := ⟨3, ![8, 256, 256]⟩
abbrev S2048 : Shape := ⟨1, ![2048]⟩
abbrev S8x256x8192 : Shape := ⟨3, ![8, 256, 8192]⟩
abbrev S8x256x1 : Shape := ⟨3, ![8, 256, 1]⟩
abbrev S1x256x256 : Shape := ⟨3, ![1, 256, 256]⟩
abbrev S1x256x4096 : Shape := ⟨3, ![1, 256, 4096]⟩
abbrev S1x256x1 : Shape := ⟨3, ![1, 256, 1]⟩
abbrev S256x256 : Shape := ⟨2, ![256, 256]⟩
abbrev S256x4096 : Shape := ⟨2, ![256, 4096]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8x256x256, .f32⟩
  | .hbm, ⟨2, _⟩ => ⟨S2048, .f32⟩
  | .hbm, ⟨3, _⟩ => ⟨S8x256x8192, .f32⟩
  | .hbm, ⟨4, _⟩ => ⟨S8x256x1, .f32⟩
  | .hbm, ⟨5, _⟩ => ⟨S8x256x256, .bf16⟩
  | .hbm, ⟨6, _⟩ => ⟨S8x256x8192, .f32⟩
  | .hbm, ⟨7, _⟩ => ⟨S2048x8192, .f32⟩
  | .local _ .vmem, ⟨0, _⟩ => ⟨S1x256x256, .bf16⟩
  | .local _ .vmem, ⟨1, _⟩ => ⟨S1x256x256, .bf16⟩
  | .local _ .vmem, ⟨2, _⟩ => ⟨S1x256x4096, .f32⟩
  | .local _ .vmem, ⟨3, _⟩ => ⟨S1x256x4096, .f32⟩
  | .local _ .vmem, ⟨4, _⟩ => ⟨S1x256x1, .f32⟩
  | .local _ .vmem, ⟨5, _⟩ => ⟨S1x256x1, .f32⟩
  | .local _ .vmem, ⟨6, _⟩ => ⟨S1x256x4096, .f32⟩
  | .local _ .vmem, ⟨7, _⟩ => ⟨S1x256x4096, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S2048x8192_S8x256x8192 : S2048x8192.ShapeCasts S8x256x8192
  shapeCasts_S2048_S8x256x1 : S2048.ShapeCasts S8x256x1
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  broadcasts_S256x1_S256x4096 : S256x1.Broadcasts S256x4096
  shapeCasts_S256x4096_S1x256x4096 : S256x4096.ShapeCasts S1x256x4096
  shapeCasts_S8x256x8192_S2048x8192 : S8x256x8192.ShapeCasts S2048x8192
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S8x256x256.size a
  hwx0_0 : ∀ i : grid0.Coords, EltTy.bits .bf16 = 32 ∨ (Rect.block (s := S8x256x256) S1x256x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S8x256x8192.size a
  hwx0_1 : ∀ i : grid0.Coords, EltTy.bits .f32 = 32 ∨ (Rect.block (s := S8x256x8192) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x256x1.size a
  hwx0_2 : ∀ i : grid0.Coords, EltTy.bits .f32 = 32 ∨ (Rect.block (s := S8x256x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x256x8192.size a
  hwx0_3 : ∀ i : grid0.Coords, EltTy.bits .f32 = 32 ∨ (Rect.block (s := S8x256x8192) S1x256x4096.size (cc0_transform_3 i) (hinb0_3 i)).WholeWords (EltTy.packing .f32)

variable [Facts₀]

def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v2) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x8192 : Shape := ⟨2, ![2048, 8192]⟩
abbrev S8x256x256 : Shape := ⟨3, ![8, 256, 256]⟩
abbrev S2048 : Shape := ⟨1, ![2048]⟩
abbrev S8x256x8192 : Shape := ⟨3, ![8, 256, 8192]⟩
abbrev S2048x1 : Shape := ⟨2, ![2048, 1]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8x256x256, .f32⟩
  | .hbm, ⟨2, _⟩ => ⟨S2048, .f32⟩
  | .hbm, ⟨3, _⟩ => ⟨S8x256x8192, .f32⟩
  | .hbm, ⟨4, _⟩ => ⟨S8x256x8192, .f32⟩
  | .hbm, ⟨5, _⟩ => ⟨S2048x8192, .f32⟩
  | .hbm, ⟨6, _⟩ => ⟨S2048x1, .f32⟩
  | .hbm, ⟨7, _⟩ => ⟨S2048x8192, .f32⟩
  | .hbm, ⟨8, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S2048x8192_S8x256x8192 : S2048x8192.ShapeCasts S8x256x8192
  shapeCasts_S8x256x8192_S2048x8192 : S8x256x8192.ShapeCasts S2048x8192
  bcast_S2048_S2048x1_0 : S2048.BroadcastsInDim S2048x1 (![0] : Fin 1 → Fin S2048x1.rank)
  bcast_S2048x1_S2048x8192_0_1 : S2048x1.BroadcastsInDim S2048x8192 (![0, 1] : Fin 2 → Fin S2048x8192.rank)
  dot_S8x256x256_S8x256x8192_S8x256x8192_2_1_1_2_0_0_wf : DotDims.WF S8x256x256 S8x256x8192 S8x256x8192 [2] [1] [1] [2] [0] [0]

variable [Facts₀]

def dot_S8x256x256_S8x256x8192_S8x256x8192_2_1_1_2_0_0 : DotDims S8x256x256 S8x256x8192 S8x256x8192 where
  lhsContracting := [2]
  rhsContracting := [1]
  lhsNonContracting := [1]
  rhsNonContracting := [2]
  lhsBatch := [0]
  rhsBatch := [0]
  wf := dot_S8x256x256_S8x256x8192_S8x256x8192_2_1_1_2_0_0_wf

class Facts : Prop extends Facts₀ where

variable [Facts]
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.LibReshape.lean ====
/-
  General lemmas about re-laid arrays read at an index, for any element type: a matrix with `a·b` rows viewed as an
  `[a, b, c]` array and back (row `i·b + j` is entry `(i, j)`), a matrix given a unit middle axis, and an array
  with a unit axis repeated along that axis.
-/
import Idealize.ShloMosaic.Lib.Pipeline.Value
import Idealize.ShloMosaic.Lib.ValueIdx

namespace Cert.LibReshape

open Idealize.ShloMosaic Idealize.ShloMosaic.ValueIdx

variable {α : Type}

/-- An `[M, c]` array viewed as `[a, b, c]` reads, at `(i, j, k)`, the operand's row `i·b + j` at column `k`. -/
theorem shapeCast_Mc_abc_apply {a b c M : ℕ} (x : (⟨2, ![M, c]⟩ : Shape).Idx → α)
    (h : (⟨2, ![M, c]⟩ : Shape).ShapeCasts ⟨3, ![a, b, c]⟩) (i : Fin a) (j : Fin b) (k : Fin c) (p : Fin M)
    (hp : p.val = i.val * b + j.val) :
    shapeCast ⟨3, ![a, b, c]⟩ x h (ix3 i j k) = x (ix2 p k) :=
  shapeCast_apply x h _ _ (by
    rw [Shape.rowMajor_val_two, Shape.rowMajor_val_three]
    show p.val * c + k.val = (i.val * b + j.val) * c + k.val
    rw [hp])

/-- An `[a, b, c]` array viewed as `[M, c]` reads, at row `i·b + j` and column `k`, the operand at `(i, j, k)`. -/
theorem shapeCast_abc_Mc_apply {a b c M : ℕ} (x : (⟨3, ![a, b, c]⟩ : Shape).Idx → α)
    (h : (⟨3, ![a, b, c]⟩ : Shape).ShapeCasts ⟨2, ![M, c]⟩) (i : Fin a) (j : Fin b) (k : Fin c) (p : Fin M)
    (hp : p.val = i.val * b + j.val) :
    shapeCast ⟨2, ![M, c]⟩ x h (ix2 p k) = x (ix3 i j k) :=
  shapeCast_apply x h _ _ (by
    rw [Shape.rowMajor_val_two, Shape.rowMajor_val_three]
    show (i.val * b + j.val) * c + k.val = p.val * c + k.val
    rw [hp])

/-- An `[a, c]` array given a unit middle axis reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_two, Shape.rowMajor_val_three]
    show i.val * c + k.val = (i.val * 1 + u.val) * c + k.val
    rw [hu, Nat.mul_one, Nat.add_zero])

/-- An `[a, 1, c]` array repeated along its middle axis reads, at `(i, j, k)`, the operand at `(i, 0, k)`. -/
theorem broadcastTo_a1c_abc_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array repeated along its leading axis reads, at `(i, j, k)`, the operand at `(0, j, k)`. -/
theorem broadcastTo_1bc_abc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.LibReshape
-- ==== Proof.LibColumn.lean ====
/-
  A column spread along its rows, read at an entry.
-/
import Idealize.ShloMosaic.Lib.Pipeline.Value
import Idealize.ShloMosaic.Lib.ValueIdx

noncomputable section

namespace Cert.GraphConv

open Idealize.ShloMosaic Idealize.ShloMosaic.ValueIdx

/-- An `[a, 1]` array broadcast to `[a, b]` (a keepdims column spread along each row) reads, at `(p, c)`, the
    column's entry of row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv

end
-- ==== Proof.BlockDiag.lean ====
/-
  The function both programs compute. A 2048-row input is cut into 8 bands of 256 rows; band k is multiplied
  on the left by the k-th 256×256 block (a block-diagonal matrix applied to the input), and row r of the
  result gets the r-th bias entry added. As an [8, 256, 8192] array, entry (k, r, b) is

      (Σ_j blocks (k, r, j) · inp (k·256 + j, b)) + bias (k·256 + r).

  Viewed as a [2048, 8192] array (row k·256 + r is entry (k, r)) this is the result.
-/
import Idealize.ShloMosaic.Lib.ValueIdx
import Idealize.ShloMosaic.PureOps.Ideal

noncomputable section

open scoped BigOperators

namespace Cert.BlockDiag

open Idealize.ShloMosaic Idealize.ShloMosaic.ValueIdx

/-- Row r of band k of a 2048-row array is its row k·256 + r. -/
def bandRow (k : Fin 8) (r : Fin 256) : Fin 2048 := ⟨k.val * 256 + r.val, by omega⟩

theorem bandRow_val (k : Fin 8) (r : Fin 256) : (bandRow k r).val = k.val * 256 + r.val := rfl

/-- Entry (k, r, b) of the banded product with bias. -/
def entry (inp : (⟨2, ![2048, 8192]⟩ : Shape).Idx → EReal) (blocks : (⟨3, ![8, 256, 256]⟩ : Shape).Idx → EReal)
    (bias : (⟨1, ![2048]⟩ : Shape).Idx → EReal) (k : Fin 8) (r : Fin 256) (b : Fin 8192) : EReal :=
  (∑ j : Fin 256, blocks (ix3 k r j) * inp (ix2 (bandRow k j) b)) + bias (ix1 (bandRow k r))

/-- The banded product with bias as an [8, 256, 8192] array. -/
def banded (inp : (⟨2, ![2048, 8192]⟩ : Shape).Idx → EReal) (blocks : (⟨3, ![8, 256, 256]⟩ : Shape).Idx → EReal)
    (bias : (⟨1, ![2048]⟩ : Shape).Idx → EReal) : (⟨3, ![8, 256, 8192]⟩ : Shape).Idx → EReal :=
  fun i => entry inp blocks bias (i 0) (i 1) (i 2)

theorem banded_apply (inp : (⟨2, ![2048, 8192]⟩ : Shape).Idx → EReal) (blocks : (⟨3, ![8, 256, 256]⟩ : Shape).Idx → EReal)
    (bias : (⟨1, ![2048]⟩ : Shape).Idx → EReal) (k : Fin 8) (r : Fin 256) (b : Fin 8192) :
    banded inp blocks bias (ix3 k r b) = entry inp blocks bias k r b := rfl

end Cert.BlockDiag

end
-- ==== Proof.Body.lean ====
/-
  The kernel body's one store, read at an entry. At a grid point the body holds one 256×256 block W, a
  256×4096 tile X of the band's input rows and the band's 256 bias entries as a column, each with a unit leading
  axis. It stores W · X + bias (the column spread along each row), so entry (r, q) of the stored tile is

      (Σ_j W (r, j) · X (j, q)) + bias r.

  The product is into a zero accumulator, the narrowing of X to the block's format is the identity on the
  extended reals, and the unit leading axis is dropped and restored by shape casts.
-/
import proofs.«180198_j90752658965115_2_alg».proof.Proof.Gen.KernelIdeal.Skeleton
import proofs.«180198_j90752658965115_2_alg».proof.Proof.LibPlainDot
import proofs.«180198_j90752658965115_2_alg».proof.Proof.LibReshape
import proofs.«180198_j90752658965115_2_alg».proof.Proof.LibColumn
import proofs.«180198_j90752658965115_2_alg».proof.Proof.BlockDiag

noncomputable section

open scoped BigOperators

namespace Cert.BlockDiag.Body

open Idealize.ShloMosaic Idealize.ShloMosaic.ValueIdx Cert.KernelIdeal Cert.KernelIdeal.Gen

/-- The body's product contracts the block's columns with the tile's rows: the plain matrix product. -/
theorem dot_plain : dot_S256x256_S256x4096_S256x4096_1_0_0_1_n_n = DotDims.plain 256 256 4096 := rfl

/-- The stored tile at (r, q): row r of the block against column q of the input tile, plus the r-th bias entry. -/
theorem pay_apply (w : Vec Ideal S1x256x256 .bf16) (x : Vec Ideal S1x256x4096 .f32) (bcol : Vec Ideal S1x256x1 .f32)
    (r : Fin 256) (q : Fin 4096) :
    k0_pay1 (F := Ideal) w x bcol (ix3 (0 : Fin 1) r q)
      = (∑ j : Fin 256, w (ix3 (0 : Fin 1) r j) * x (ix3 (0 : Fin 1) j q)) + bcol (ix3 (0 : Fin 1) r (0 : Fin 1)) := by
  unfold k0_pay1
  refine (Cert.LibReshape.shapeCast_Mc_abc_apply _ _ (0 : Fin 1) r q r (by simp)).trans ?_
  refine (addf_apply _ _ _).trans ?_
  refine congrArg₂ (· + ·) ?_ ?_
  · refine (Cert.Lib.PlainDot.matmul_zero_apply _ dot_plain none _ _ r q).trans ?_
    refine Finset.sum_congr rfl fun j _ => ?_
    refine congrArg₂ (· * ·) ?_ ?_
    · exact Cert.LibReshape.shapeCast_abc_Mc_apply w _ (0 : Fin 1) r j r (by simp)
    · show shapeCast S256x4096 x shapeCasts_S1x256x4096_S256x4096 (ix2 j q) = _
      exact Cert.LibReshape.shapeCast_abc_Mc_apply x _ (0 : Fin 1) j q j (by simp)
  · refine (Cert.GraphConv.broadcastTo_a1_ab_apply _ _ r q).trans ?_
    exact Cert.LibReshape.shapeCast_abc_Mc_apply bcol _ (0 : Fin 1) r (0 : Fin 1) r (by simp)

/-- Column q of the h-th half of the 8192 columns. -/
def colOf (h : Fin 2) (q : Fin 4096) : Fin 8192 := ⟨h.val * 4096 + q.val, by omega⟩

/-- A tile computed from band k's block, band k's input rows in the h-th half of the columns, and band k's bias
    entries is the banded product's tile: entry (r, q) is the banded product with bias at (k, r, h·4096 + q). -/
theorem tile_entry (inp : (⟨2, ![2048, 8192]⟩ : Shape).Idx → EReal) (blocks : (⟨3, ![8, 256, 256]⟩ : Shape).Idx → EReal)
    (bias : (⟨1, ![2048]⟩ : Shape).Idx → EReal) (k : Fin 8) (h : Fin 2)
    (w : Vec Ideal S1x256x256 .bf16) (x : Vec Ideal S1x256x4096 .f32) (bcol : Vec Ideal S1x256x1 .f32)
    (hw : ∀ r j : Fin 256, w (ix3 (0 : Fin 1) r j) = blocks (ix3 k r j))
    (hx : ∀ (j : Fin 256) (q : Fin 4096), x (ix3 (0 : Fin 1) j q) = inp (ix2 (bandRow k j) (colOf h q)))
    (hb : ∀ r : Fin 256, bcol (ix3 (0 : Fin 1) r (0 : Fin 1)) = bias (ix1 (bandRow k r)))
    (r : Fin 256) (q : Fin 4096) :
    k0_pay1 (F := Ideal) w x bcol (ix3 (0 : Fin 1) r q) = entry inp blocks bias k r (colOf h q) := by
  rw [pay_apply, hb]
  unfold entry
  simp only [hw, hx]

end Cert.BlockDiag.Body

end
-- ==== Proof.Region.lean ====
/-
  The kernel's region. The grid has 8 × 2 points; point t works on band t / 2 and on the (t % 2)-th half of
  the 8192 columns. Before the region the input is viewed as [8, 256, 8192] (row k·256 + r is entry (k, r)),
  the bias as [8, 256, 1], and the blocks are narrowed (the identity on the extended reals). So at point t the
  body holds block t / 2, rows of band t / 2 of the input in columns (t % 2)·4096 …, and band t / 2's bias
  entries; what it writes back is the tile (t / 2, ·, (t % 2)·4096 + ·) of the banded product with bias. The
  16 tiles cover the [8, 256, 8192] array, which therefore ends holding the banded product with bias.
-/
import proofs.«180198_j90752658965115_2_alg».proof.Proof.Gen.KernelIdeal.Frame
import proofs.«180198_j90752658965115_2_alg».proof.Proof.Body
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.BlockDiag.Region

open Cert.KernelIdeal Cert.KernelIdeal.Gen Cert.BlockDiag Cert.BlockDiag.Body

variable (m : (ℓ : Loc nD τ sig) → Buf (Elt Ideal) ℓ) (ρ : Dev nD → PrngReg)

theorem hz : (![0, 0, 0] : Fin 3 → Nat) = fun _ => 0 := funext fun a => by fin_cases a <;> rfl

/-! ## The arrays as the region finds them -/

/-- The input, viewed as [8, 256, 8192]. -/
theorem V_v0 (c : Dev nD) : V m c main_v0 = shapeCast S8x256x8192 (m ((c : Thread nD τ).loc main_arg0)) shapeCasts_S2048x8192_S8x256x8192 := by
  show StableHlo.after hostOps0 (fun b => m (c, b)) (Proc.devRef .tc main_v0) = _
  after_results; rfl

/-- The bias, viewed as [8, 256, 1]. -/
theorem V_v1 (c : Dev nD) : V m c main_v1 = shapeCast S8x256x1 (m ((c : Thread nD τ).loc main_arg2)) shapeCasts_S2048_S8x256x1 := by
  show StableHlo.after hostOps0 (fun b => m (c, b)) (Proc.devRef .tc main_v1) = _
  after_results; rfl

/-- The blocks, narrowed. -/
theorem V_v2 (c : Dev nD) : (V m c main_v2 : S8x256x256.Idx → EReal) = (m ((c : Thread nD τ).loc main_arg1) : S8x256x256.Idx → EReal) := by
  show StableHlo.after hostOps0 (fun b => m (c, b)) (Proc.devRef .tc main_v2) = _
  after_results; rfl

/-- A 2048-vector viewed as [8, 256, 1] reads, at (k, r, 0), its entry k·256 + r. -/
theorem column3_apply (v : S2048.Idx → EReal) (k : Fin 8) (r : Fin 256) (u : Fin 1) :
    shapeCast S8x256x1 v shapeCasts_S2048_S8x256x1 (ix3 k r u) = v (ix1 (bandRow k r)) :=
  shapeCast_apply v _ _ _ (by
    have hu : u.val = 0 := by omega
    rw [Shape.rowMajor_val_one, Shape.rowMajor_val_three]
    show k.val * 256 + r.val = (k.val * 256 + r.val) * 1 + u.val
    omega)

/-! ## The grid's points -/

/-- The windows' block indices at point t: all four on band t / 2; the input's and the result's on column half
    t % 2. Decided over the 16 points. -/
theorem idx_facts : ∀ t : Fin cfg0.N,
    win0_0.index t (0 : Fin 3) = t.val / 2 ∧ win0_0.index t (1 : Fin 3) = 0 ∧ win0_0.index t (2 : Fin 3) = 0
    ∧ win0_1.index t (0 : Fin 3) = t.val / 2 ∧ win0_1.index t (1 : Fin 3) = 0 ∧ win0_1.index t (2 : Fin 3) = t.val % 2
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = 0 ∧ win0_3.index t (2 : Fin 3) = t.val % 2 :=
  (by decide +kernel : ∀ t : Fin grid0.N, _)

theorem lt16 (t : Fin cfg0.N) : t.val < 16 := Nat.lt_of_lt_of_eq t.isLt (N_0 : cfg0.N = 16)

/-- The band point t works on. -/
def bandAt (t : Fin cfg0.N) : Fin 8 := ⟨t.val / 2, by have := lt16 t; omega⟩
/-- The half of the columns point t works on. -/
def halfAt (t : Fin cfg0.N) : Fin 2 := ⟨t.val % 2, Nat.mod_lt _ (by decide)⟩

/-! ## The input blocks at a point -/

/-- The block window's block at point t is block t / 2. -/
theorem blk0_apply (c : Dev nD) (t : Fin cfg0.N) (r j : Fin 256) :
    (iblk m c 0 t : Vec Ideal S1x256x256 .bf16) (ix3 (0 : Fin 1) r j)
      = (m ((c : Thread nD τ).loc main_arg1) : S8x256x256.Idx → EReal) (ix3 (bandAt t) r j) := by
  obtain ⟨e0, e1, e2, -⟩ := idx_facts t
  unfold iblk
  rw [View.read_apply]
  show (V m c main_v2 : S8x256x256.Idx → EReal) (((cfg0.win 0).blk t).view.emb (ix3 (0 : Fin 1) r j)) = _
  rw [V_v2]
  congr 1
  funext a; apply Fin.ext
  match a with
  | ⟨0, _⟩ => show win0_0.index t (0 : Fin 3) * 1 + 1 * 0 = t.val / 2; omega
  | ⟨1, _⟩ => show win0_0.index t (1 : Fin 3) * 256 + 1 * r.val = r.val; omega
  | ⟨2, _⟩ => show win0_0.index t (2 : Fin 3) * 256 + 1 * j.val = j.val; omega

/-- The input window's block at point t is band t / 2's rows in the (t % 2)-th half of the columns. -/
theorem blk1_apply (c : Dev nD) (t : Fin cfg0.N) (j : Fin 256) (q : Fin 4096) :
    (iblk m c 1 t : Vec Ideal S1x256x4096 .f32) (ix3 (0 : Fin 1) j q)
      = (m ((c : Thread nD τ).loc main_arg0) : S2048x8192.Idx → EReal) (ix2 (bandRow (bandAt t) j) (colOf (halfAt t) q)) := by
  obtain ⟨-, -, -, e0, e1, e2, -⟩ := idx_facts t
  unfold iblk
  rw [View.read_apply]
  show (V m c main_v0 : S8x256x8192.Idx → EReal) (((cfg0.win 1).blk t).view.emb (ix3 (0 : Fin 1) j q)) = _
  rw [V_v0]
  refine (congrArg _ ?_).trans (Cert.LibReshape.shapeCast_Mc_abc_apply _ _ (bandAt t) j (colOf (halfAt t) q) (bandRow (bandAt t) j) rfl)
  funext a; apply Fin.ext
  match a with
  | ⟨0, _⟩ => show win0_1.index t (0 : Fin 3) * 1 + 1 * 0 = t.val / 2; omega
  | ⟨1, _⟩ => show win0_1.index t (1 : Fin 3) * 256 + 1 * j.val = j.val; omega
  | ⟨2, _⟩ => show win0_1.index t (2 : Fin 3) * 4096 + 1 * q.val = t.val % 2 * 4096 + q.val; omega

/-- The bias window's block at point t is band t / 2's bias entries. -/
theorem blk2_apply (c : Dev nD) (t : Fin cfg0.N) (r : Fin 256) :
    (iblk m c 2 t : Vec Ideal S1x256x1 .f32) (ix3 (0 : Fin 1) r (0 : Fin 1))
      = (m ((c : Thread nD τ).loc main_arg2) : S2048.Idx → EReal) (ix1 (bandRow (bandAt t) r)) := by
  obtain ⟨-, -, -, -, -, -, e0, e1, e2, -⟩ := idx_facts t
  unfold iblk
  rw [View.read_apply]
  show (V m c main_v1 : S8x256x1.Idx → EReal) (((cfg0.win 2).blk t).view.emb (ix3 (0 : Fin 1) r (0 : Fin 1))) = _
  rw [V_v1]
  refine (congrArg _ ?_).trans (column3_apply _ (bandAt t) r (0 : Fin 1))
  funext a; apply Fin.ext
  match a with
  | ⟨0, _⟩ => show win0_2.index t (0 : Fin 3) * 1 + 1 * 0 = t.val / 2; omega
  | ⟨1, _⟩ => show win0_2.index t (1 : Fin 3) * 256 + 1 * r.val = r.val; omega
  | ⟨2, _⟩ => show win0_2.index t (2 : Fin 3) * 1 + 1 * 0 = 0; omega

/-! ## What a point writes back, and the array after the run -/

/-- Point t writes back the tile (t / 2, ·, (t % 2)·4096 + ·) of the banded product with bias. -/
theorem flushed_eq (c : Dev nD) (t : Fin cfg0.N) :
    (dats m 0 c).flushed 3 t = ((cfg0.win 3).blk t).view.read (Elt Ideal)
      (banded (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1x256x256) hz, View.ld_unit_zero (S := S1x256x4096) hz, View.ld_unit_zero (S := S1x256x1) hz]
  obtain ⟨-, -, -, -, -, -, -, -, -, e0, e1, e2⟩ := idx_facts t
  refine funext fun (y : S1x256x4096.Idx) => ?_
  obtain ⟨u, r, q, rfl⟩ : ∃ (u : Fin 1) (r : Fin 256) (q : Fin 4096), y = ix3 u r q := ⟨y 0, y 1, y 2, eq_ix3 y⟩
  obtain rfl : u = 0 := Subsingleton.elim _ _
  show k0_pay1 (iblk m c 0 t) (iblk m c 1 t) (iblk m c 2 t) (ix3 (0 : Fin 1) r q)
    = banded (m ((c : Thread nD τ).loc main_arg0)) (m ((c : Thread nD τ).loc main_arg1)) (m ((c : Thread nD τ).loc main_arg2))
        (((cfg0.win 3).blk t).view.emb (ix3 (0 : Fin 1) r q))
  refine (tile_entry (m ((c : Thread nD τ).loc main_arg0)) (m ((c : Thread nD τ).loc main_arg1)) (m ((c : Thread nD τ).loc main_arg2))
    (bandAt t) (halfAt t) (iblk m c 0 t) (iblk m c 1 t) (iblk m c 2 t)
    (blk0_apply m c t) (blk1_apply m c t) (blk2_apply m c t) r q).trans ?_
  refine (banded_apply _ _ _ (bandAt t) r (colOf (halfAt t) q)).symm.trans (congrArg _ ?_)
  funext a; apply Fin.ext
  match a with
  | ⟨0, _⟩ => show t.val / 2 = win0_3.index t (0 : Fin 3) * 1 + 1 * 0; omega
  | ⟨1, _⟩ => show r.val = win0_3.index t (1 : Fin 3) * 256 + 1 * r.val; omega
  | ⟨2, _⟩ => show t.val % 2 * 4096 + q.val = win0_3.index t (2 : Fin 3) * 4096 + 1 * q.val; omega

/-- An index of the [8, 256, 8192] array is in point t's tile iff each coordinate is in the tile's range. -/
theorem mem_tile (t : Fin cfg0.N) (i : S8x256x8192.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v3).slice (win0_3.rect t)).set ↔ _
  rw [View.set_slice_whole, Rect.mem_set_unit]
  exact Iff.rfl

/-- Every index (k, r, b) lies in the tile of point 2·k + b / 4096, which is written back. -/
theorem cover (i : S8x256x8192.Idx) : ∃ t : Fin cfg0.N, (cfg0.win 3).flush t = true ∧ i ∈ ((cfg0.win 3).blk t).view.set := by
  have h0 : (i 0).val < 8 := (i 0).isLt
  have h1 : (i 1).val < 256 := (i 1).isLt
  have h2 : (i 2).val < 8192 := (i 2).isLt
  let t : Fin cfg0.N := ⟨(i 0).val * 2 + (i 2).val / 4096, Nat.lt_of_lt_of_eq (by omega : (i 0).val * 2 + (i 2).val / 4096 < 16) (N_0 : cfg0.N = 16).symm⟩
  have ht : t.val = (i 0).val * 2 + (i 2).val / 4096 := rfl
  obtain ⟨-, -, -, -, -, -, -, -, -, e0, e1, e2⟩ := idx_facts t
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 4096 ≤ (i 2).val ∧ (i 2).val < win0_3.index t (2 : Fin 3) * 4096 + 4096; omega

/-- The [8, 256, 8192] array after the run is the banded product with bias of the arguments. -/
theorem final (c : Dev nD) : (dats m 0 c).arrAt 3 cfg0.N
    = banded (m ((c : Thread nD τ).loc main_arg0)) (m ((c : Thread nD τ).loc main_arg1)) (m ((c : Thread nD τ).loc main_arg2)) :=
  (dats m 0 c).arrAt_eq_of_cover 3 _ (fun t _ => flushed_eq m c t) cover

end Cert.BlockDiag.Region

end
-- ==== Proof.KernelRun.lean ====
/-
  The kernel's run, read. After the region the [8, 256, 8192] array holds the banded product with bias, and
  the one operation after the region views it as [2048, 8192]: that view is the kernel's result. The arguments
  end as they were.
-/
import proofs.«180198_j90752658965115_2_alg».proof.Proof.Region

noncomputable section

open Idealize.ShloMosaic Idealize.ShloMosaic.TcCoe Idealize.SL.Sem Idealize.ShloMosaic.ValueIdx
open Idealize.ShloMosaic.Pipeline (Dat)

namespace Cert.BlockDiag.KernelRun

open Cert.KernelIdeal Cert.KernelIdeal.Gen Cert.BlockDiag Cert.BlockDiag.Region

variable (m : (ℓ : Loc nD τ sig) → Buf (Elt Ideal) ℓ) (ρ : Dev nD → PrngReg)

/-- The result buffer after the operation that follows the region: the banded product with bias, viewed as
    [2048, 8192]. -/
theorem result_eq (c : Dev nD) :
    Pipeline.afterTail₀ cfgs (dats m) 0 (V0 m) [hostOps1] c main_v4
      = shapeCast S2048x8192 (banded (m ((c : Thread nD τ).loc main_arg0)) (m ((c : Thread nD τ).loc main_arg1)) (m ((c : Thread nD τ).loc main_arg2)))
          shapeCasts_S8x256x8192_S2048x8192 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = banded (m ((c : Thread nD τ).loc main_arg0)) (m ((c : Thread nD τ).loc main_arg1)) (m ((c : Thread nD τ).loc main_arg2)) :=
    (Pipeline.withArrays_arr spec0 launch0.win.arr_inj c _ _ 3).trans (final m c)
  funext i
  exact congrFun (congrArg (fun z => shapeCast S2048x8192 z shapeCasts_S8x256x8192_S2048x8192) e) i

/-- Every weakly fair execution of the kernel's program terminates with the result at the banded product with
    bias viewed as [2048, 8192], the arguments unchanged. -/
theorem run : θ_run defs (onTc (τ := τ) (main (F := Ideal))) ⟨m, fun _ => 0, ρ⟩ fun r => ∀ c : Dev nD,
      r.2.mem ((c : Thread nD τ).loc main_v4)
        = shapeCast S2048x8192 (banded (m ((c : Thread nD τ).loc main_arg0)) (m ((c : Thread nD τ).loc main_arg1)) (m ((c : Thread nD τ).loc main_arg2)))
            shapeCasts_S8x256x8192_S2048x8192
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.BlockDiag.KernelRun

end
-- ==== Proof.RefRead.lean ====
/-
  The reference, read at an entry. It views the input as [8, 256, 8192], multiplies band by band (a product with
  a batch axis: entry (k, r, b) is Σ_j blocks (k, r, j) · x (k, j, b)), views the product as [2048, 8192] and
  adds the bias spread along each row. Entry (p, b) of the result is therefore the banded product with bias at
  (p / 256, p % 256, b): the reference's result is the banded product with bias viewed as a [2048, 8192] array.
-/
import proofs.«180198_j90752658965115_2_alg».proof.Proof.Gen.ReferenceIdeal.Read
import proofs.«180198_j90752658965115_2_alg».proof.Proof.BlockDiag
import proofs.«180198_j90752658965115_2_alg».proof.Proof.LibReshape

noncomputable section

open scoped BigOperators

namespace Cert.BlockDiag.Ref

open Idealize.ShloMosaic Idealize.ShloMosaic.ValueIdx Cert.ReferenceIdeal Cert.ReferenceIdeal.Read Cert.BlockDiag

/-- The band of row p. -/
def bandOf (p : Fin 2048) : Fin 8 := ⟨p.val / 256, by omega⟩
/-- The row of p inside its band. -/
def rowIn (p : Fin 2048) : Fin 256 := ⟨p.val % 256, Nat.mod_lt _ (by decide)⟩

theorem bandRow_split (p : Fin 2048) : bandRow (bandOf p) (rowIn p) = p :=
  Fin.ext (by show p.val / 256 * 256 + p.val % 256 = p.val; omega)

/-- The reference's result at (p, b) is the banded product with bias at (p / 256, p % 256, b). -/
theorem val_main_v5_entry (x0 : (⟨S2048x8192, .f32⟩ : BufTy).Contents (Elt Ideal)) (x1 : (⟨S8x256x256, .f32⟩ : BufTy).Contents (Elt Ideal))
    (x2 : (⟨S2048, .f32⟩ : BufTy).Contents (Elt Ideal)) (p : Fin 2048) (b : Fin 8192) :
    val_main_v5 (F := Ideal) x0 x1 x2 (ix2 p b) = entry x0 x1 x2 (bandOf p) (rowIn p) b := by
  have hp := p.isLt
  have hb := b.isLt
  have e3 : idx_main_v3 (idx_main_v4 (ix2 p b)) = ix1 (bandRow (bandOf p) (rowIn p)) := by
    rw [bandRow_split]
    exact funext fun a => Fin.ext (by match a with | ⟨0, _⟩ => rfl)
  have el : ∀ j : Fin 256, lidx_main_v1 (idx_main_v2 (ix2 p b)) j = ix3 (bandOf p) (rowIn p) j := fun j =>
    funext fun a => Fin.ext (by
      match a with
      | ⟨0, _⟩ => show (p.val * 8192 + b.val) / 2097152 = p.val / 256; omega
      | ⟨1, _⟩ => show (p.val * 8192 + b.val) / 8192 % 256 = p.val % 256; omega
      | ⟨2, _⟩ => rfl)
  have er : ∀ j : Fin 256, idx_main_v0 (ridx_main_v1 (idx_main_v2 (ix2 p b)) j) = ix2 (bandRow (bandOf p) j) b := fun j =>
    funext fun a => Fin.ext (by
      have hj := j.isLt
      match a with
      | ⟨0, _⟩ => show (((p.val * 8192 + b.val) / 2097152 * 256 + j.val) * 8192 + (p.val * 8192 + b.val) % 8192) / 8192 = p.val / 256 * 256 + j.val; omega
      | ⟨1, _⟩ => show (((p.val * 8192 + b.val) / 2097152 * 256 + j.val) * 8192 + (p.val * 8192 + b.val) % 8192) % 8192 = b.val; omega)
  rw [val_main_v5_apply, val_main_v2_apply, val_main_v1_apply, val_main_v4_apply, val_main_v3_apply, e3]
  simp only [val_main_v0_apply, el, er]
  rfl

/-- The reference's result is the banded product with bias, viewed as a [2048, 8192] array. -/
theorem val_main_v5_eq_banded (x0 : (⟨S2048x8192, .f32⟩ : BufTy).Contents (Elt Ideal)) (x1 : (⟨S8x256x256, .f32⟩ : BufTy).Contents (Elt Ideal))
    (x2 : (⟨S2048, .f32⟩ : BufTy).Contents (Elt Ideal)) (h : (⟨3, ![8, 256, 8192]⟩ : Shape).ShapeCasts ⟨2, ![2048, 8192]⟩) :
    val_main_v5 (F := Ideal) x0 x1 x2 = shapeCast ⟨2, ![2048, 8192]⟩ (banded x0 x1 x2) h := by
  funext i
  obtain ⟨p, b, rfl⟩ : ∃ (p : Fin 2048) (b : Fin 8192), i = ix2 p b := ⟨i 0, i 1, eq_ix2 i⟩
  rw [val_main_v5_entry, Cert.LibReshape.shapeCast_abc_Mc_apply (banded x0 x1 x2) h (bandOf p) (rowIn p) b p
    (by show p.val = p.val / 256 * 256 + p.val % 256; omega)]
  rfl

end Cert.BlockDiag.Ref

end
-- ==== Proof.lean ====
/-
  A block-diagonal linear map with bias, computed band by band. The 2048 × 8192 input is cut into 8 bands of 256
  rows; band k is multiplied on the left by the k-th 256 × 256 block and row r of the result gets the r-th bias
  entry added:

      out (k·256 + r, b) = (Σ_j blocks (k, r, j) · inp (k·256 + j, b)) + bias (k·256 + r).

  The kernel walks a grid of 8 bands × 2 halves of the columns; at each point it multiplies the band's block (narrowed
  to a shorter float format, which is the identity on the extended reals) into a 256 × 4096 tile of the band's rows,
  adds the band's bias entries spread along each row, and writes the tile back; the 16 tiles cover the result.
  The reference views the input as [8, 256, 8192], takes the product with a batch axis over the bands, views it
  back as [2048, 8192] and adds the bias spread along each row. On the extended reals both are the sum above, over
  the same index j in the same grouping, so no law beyond reading each side at an entry is needed, and the
  finiteness of the inputs is not used.

  The three frames: the kernel's two programs run by their generated frame certificates, the reference by its
  generated run with the result dropped. The idealized kernel is the kernel's own text read on the extended reals
  (no rewrite was applied), so there is nothing to preserve.
-/
import proofs.«180198_j90752658965115_2_alg».proof.Defs
import proofs.«180198_j90752658965115_2_alg».proof.Proof.Gen.Kernel
import proofs.«180198_j90752658965115_2_alg».proof.Proof.Gen.Kernel.Skeleton
import proofs.«180198_j90752658965115_2_alg».proof.Proof.Gen.Kernel.Launch
import proofs.«180198_j90752658965115_2_alg».proof.Proof.Gen.Kernel.Points
import proofs.«180198_j90752658965115_2_alg».proof.Proof.Gen.Kernel.Frame
import proofs.«180198_j90752658965115_2_alg».proof.Proof.Gen.KernelIdeal
import proofs.«180198_j90752658965115_2_alg».proof.Proof.Gen.KernelIdeal.Skeleton
import proofs.«180198_j90752658965115_2_alg».proof.Proof.Gen.KernelIdeal.Launch
import proofs.«180198_j90752658965115_2_alg».proof.Proof.Gen.KernelIdeal.Points
import proofs.«180198_j90752658965115_2_alg».proof.Proof.Gen.KernelIdeal.Frame
import proofs.«180198_j90752658965115_2_alg».proof.Proof.Gen.ReferenceIdeal
import proofs.«180198_j90752658965115_2_alg».proof.Proof.Gen.ReferenceIdeal.Run
import proofs.«180198_j90752658965115_2_alg».proof.Proof.Gen.ReferenceIdeal.Read
import proofs.«180198_j90752658965115_2_alg».proof.Proof.Gen.Pre_finite_inputs
import proofs.«180198_j90752658965115_2_alg».proof.Proof.KernelRun
import proofs.«180198_j90752658965115_2_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the banded product with bias of the arguments, viewed as [2048, 8192]: the kernel by
    its 16 tiles and the view after the region, the reference by reading its operations at an entry. -/
theorem algebraic : Cert.algebraic_KernelIdeal_ReferenceIdeal := by
  intro m ρ m' ρ' _ hagree
  refine ⟨_, Cert.BlockDiag.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq,
    Cert.BlockDiag.Ref.val_main_v5_eq_banded _ _ _ Cert.KernelIdeal.Gen.shapeCasts_S8x256x8192_S2048x8192,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
